-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S16384 : Shape := ⟨1, ![16384]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S16384x256 .f32) (main_arg1 : FVec F S16384x256 .f32) (main_arg2 : FVec F S16384 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S16384x256 .f32 := Host.absf main_arg1
  let main_cst_0 : FVec F S_ .f32 := constant S_ .f32 0x7F800000#32
  let main_v5 : FVec F S16384x256 .f32 := broadcastInDim S16384x256 ![] bcast_S_S16384x256 main_cst_0
  let main_v6 : IVec S16384x256 1 := cmpf .olt main_v4 main_v5
  let main_c_1 : IVec S_ 1 := constantI S_ 1 1#1
  let main_v7 : IVec S_ 1 := (fun x v => Host.reduce IntOp.andi x v reducesTo_S16384x256_S_d0_1 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S16384x256 : Shape := ⟨2, ![16384, 256]⟩
abbrev S16384 : Shape := ⟨1, ![16384]⟩
abbrev S_ : Shape := ⟨0, ![]⟩
abbrev S16384x1 : Shape := ⟨2, ![16384, 1]⟩
abbrev S1x16384 : Shape := ⟨2, ![1, 16384]⟩
abbrev S2048x256 : Shape := ⟨2, ![2048, 256]⟩
abbrev S512x256 : Shape := ⟨2, ![512, 256]⟩
abbrev S2048x1 : Shape := ⟨2, ![2048, 1]⟩
abbrev S1x512 : Shape := ⟨2, ![1, 512]⟩
abbrev S2048x512 : Shape := ⟨2, ![2048, 512]⟩
abbrev S2048 : Shape := ⟨1, ![2048]⟩

abbrev nBuf : Space → Nat
  | .hbm => 23
  | .vmem => 11
  | .smem => 0
  | _ => 0

abbrev bufTy : (tb : Table) → Fin (tcTables nBuf tb) → BufTy
  | .hbm, ⟨0, _⟩ => ⟨S16384x256, .f32⟩
  | .hbm, ⟨1, _⟩ => ⟨S16384x256, .f32⟩
  | .hbm, ⟨2, _⟩ => ⟨S16384, .f32⟩
  | .hbm, ⟨3, _⟩ => ⟨S16384x256, .bf16⟩
  | .hbm, ⟨4, _⟩ => ⟨S16384x256, .bf16⟩
  | .hbm, ⟨5, _⟩ => ⟨S16384x256, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S16384x256, .f32⟩
  | .hbm, ⟨10, _⟩ => ⟨S_, .f32⟩
  | .hbm, ⟨11, _⟩ => ⟨S16384, .f32⟩
  | .hbm, ⟨12, _⟩ => ⟨S16384, .f32⟩
  | .hbm, ⟨13, _⟩ => ⟨S1x16384, .f32⟩
  | .hbm, ⟨14, _⟩ => ⟨S16384x1, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S2048x256, .bf16⟩
  | .local _ .vmem, ⟨1, _⟩ => ⟨S2048x256, .bf16⟩
  | .local _ .vmem, ⟨2, _⟩ => ⟨S512x256, .bf16⟩
  | .local _ .vmem, ⟨3, _⟩ => ⟨S512x256, .bf16⟩
  | .local _ .vmem, ⟨4, _⟩ => ⟨S2048x1, .f32⟩
  | .local _ .vmem, ⟨5, _⟩ => ⟨S2048x1, .f32⟩
  | .local _ .vmem, ⟨6, _⟩ => ⟨S1x512, .f32⟩
  | .local _ .vmem, ⟨7, _⟩ => ⟨S1x512, .f32⟩
  | .local _ .vmem, ⟨8, _⟩ => ⟨S2048x1, .f32⟩
  | .local _ .vmem, ⟨9, _⟩ => ⟨S2048x1, .f32⟩
  | .local _ .vmem, ⟨10, _⟩ => ⟨S2048x1, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_cst_4 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 32], ![false, false]⟩

def k0_cond2 (i : grid0.Coords) : BitVec 1 :=
  let arg1 : BitVec 32 := BitVec.ofNat 32 (i 1).val
  let c31_i32 : BitVec 32 := 31#32
  let v25 : BitVec 1 := Scalar.cmpi .eq arg1 c31_i32
  let v26 : BitVec 32 := Scalar.extui v25
  let c0_i32_14 : BitVec 32 := 0#32
  let v27 : BitVec 1 := Scalar.cmpi .ne v26 c0_i32_14
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bitsLt_bf16_f32 : FTy.bits .bf16 < FTy.bits .f32
  reducesTo_S16384x256_S16384_d1 : S16384x256.ReducesTo [1] S16384
  h_S_ : 0 < S_.numel
  bcast_S16384_S16384x1_0 : S16384.BroadcastsInDim S16384x1 (![0] : Fin 1 → Fin S16384x1.rank)
  shapeCasts_S16384_S1x16384 : S16384.ShapeCasts S1x16384
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S2048x1_S2048x512 : S2048x1.Broadcasts S2048x512
  broadcasts_S1x512_S2048x512 : S1x512.Broadcasts S2048x512
  reduces_S2048x512_S2048 : S2048x512.Reduces [1] S2048
  shapeCasts_S2048_S2048x1 : S2048.ShapeCasts S2048x1
  reducesTo_S16384x1_S_d0_1 : S16384x1.ReducesTo [0, 1] S_
  reducesTo_S16384_S_d0 : S16384.ReducesTo [0] S_
  dot_S2048x256_S512x256_S2048x512_1_1_0_0_n_n_wf : DotDims.WF S2048x256 S512x256 S2048x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S16384x256.size a
  hwx0_0 : ∀ i : grid0.Coords, EltTy.bits .bf16 = 32 ∨ (Rect.block (s := S16384x256) S2048x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S16384x256.size a
  hwx0_1 : ∀ i : grid0.Coords, EltTy.bits .bf16 = 32 ∨ (Rect.block (s := S16384x256) S512x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S16384x1.size a
  hwx0_2 : ∀ i : grid0.Coords, EltTy.bits .f32 = 32 ∨ (Rect.block (s := S16384x1) S2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x16384.size a
  hwx0_3 : ∀ i : grid0.Coords, EltTy.bits .f32 = 32 ∨ (Rect.block (s := S1x16384) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1.size a ≤ S16384x1.size a
  hwx0_4 : ∀ i : grid0.Coords, EltTy.bits .f32 = 32 ∨ (Rect.block (s := S16384x1) S2048x1.size (cc0_transform_4 i) (hinb0_4 i)).WholeWords (EltTy.packing .f32)

variable [Facts₀]

def dot_S2048x256_S512x256_S2048x512_1_1_0_0_n_n : DotDims S2048x256 S512x256 S2048x512 where
  lhsContracting := [1]
  rhsContracting := [1]
  lhsNonContracting := [0]
  rhsNonContracting := [0]
  lhsBatch := []
  rhsBatch := []
  wf := dot_S2048x256_S512x256_S2048x512_1_1_0_0_n_n_wf

abbrev win0_0 : Pipeline.Window sig grid0 :=
  Pipeline.Window.ofSpec (Memref.whole main_v0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S2048x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16384x256 : Shape := ⟨2, ![16384, 256]⟩
abbrev S16384 : Shape := ⟨1, ![16384]⟩
abbrev S_ : Shape := ⟨0, ![]⟩
abbrev S16384x1 : Shape := ⟨2, ![16384, 1]⟩
abbrev S1x16384 : Shape := ⟨2, ![1, 16384]⟩
abbrev S16384x16384 : Shape := ⟨2, ![16384, 16384]⟩
abbrev S256x16384 : Shape := ⟨2, ![256, 16384]⟩

abbrev nBuf : Space → Nat
  | .hbm => 33
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x256, .f32⟩
  | .hbm, ⟨2, _⟩ => ⟨S16384, .f32⟩
  | .hbm, ⟨3, _⟩ => ⟨S16384x256, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S16384x256, .f32⟩
  | .hbm, ⟨8, _⟩ => ⟨S_, .f32⟩
  | .hbm, ⟨9, _⟩ => ⟨S16384, .f32⟩
  | .hbm, ⟨10, _⟩ => ⟨S1x16384, .f32⟩
  | .hbm, ⟨11, _⟩ => ⟨S16384x16384, .f32⟩
  | .hbm, ⟨12, _⟩ => ⟨S16384x16384, .f32⟩
  | .hbm, ⟨13, _⟩ => ⟨S16384x16384, .f32⟩
  | .hbm, ⟨14, _⟩ => ⟨S256x16384, .f32⟩
  | .hbm, ⟨15, _⟩ => ⟨S16384x16384, .f32⟩
  | .hbm, ⟨16, _⟩ => ⟨S_, .f32⟩
  | .hbm, ⟨17, _⟩ => ⟨S16384x16384, .f32⟩
  | .hbm, ⟨18, _⟩ => ⟨S16384x16384, .f32⟩
  | .hbm, ⟨19, _⟩ => ⟨S16384x16384, .f32⟩
  | .hbm, ⟨20, _⟩ => ⟨S1x16384, .f32⟩
  | .hbm, ⟨21, _⟩ => ⟨S16384x16384, .f32⟩
  | .hbm, ⟨22, _⟩ => ⟨S16384x16384, .f32⟩
  | .hbm, ⟨23, _⟩ => ⟨S_, .f32⟩
  | .hbm, ⟨24, _⟩ => ⟨S16384, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_cst_6 : Ref sig .tc := ⟨.hbm, 31, rfl⟩
abbrev main_v21 : Ref sig .tc := ⟨.hbm, 32, rfl⟩

abbrev nD : Nat := 1
abbrev τ : Topo := Topo.v7x

variable {F : FTy → Type} [FloatOps F]

class Facts₀ : Prop where
  reducesTo_S16384x256_S16384_d1 : S16384x256.ReducesTo [1] S16384
  h_S_ : 0 < S_.numel
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  transposes_S16384x256_S256x16384_1_0 : S16384x256.Transposes [1, 0] S256x16384
  bcast_S_S16384x16384 : S_.BroadcastsInDim S16384x16384 (![] : Fin 0 → Fin S16384x16384.rank)
  reducesTo_S16384x16384_S16384_d1 : S16384x16384.ReducesTo [1] S16384
  reducesTo_S16384_S_d0 : S16384.ReducesTo [0] S_
  dot_S16384x256_S256x16384_S16384x16384_1_0_0_1_n_n_wf : DotDims.WF S16384x256 S256x16384 S16384x16384 [1] [0] [0] [1] [] []

variable [Facts₀]

def dot_S16384x256_S256x16384_S16384x16384_1_0_0_1_n_n : DotDims S16384x256 S256x16384 S16384x16384 where
  lhsContracting := [1]
  rhsContracting := [0]
  lhsNonContracting := [0]
  rhsNonContracting := [1]
  lhsBatch := []
  rhsBatch := []
  wf := dot_S16384x256_S256x16384_S16384x16384_1_0_0_1_n_n_wf

class Facts : Prop extends Facts₀ where

variable [Facts]
-- ==== Proof.LibMinFold.lean ====
/-
  A minimum carried by its lower bounds. In a linear order, a value `v` is "the minimum of `c` and the family `g`"
  exactly when the lower bounds of `v` are the common lower bounds of `c` and of every `g j`. Stated this way a minimum
  taken in pieces — chunk by chunk, or accumulated over several steps from the same starting value — needs no
  re-indexing: the pieces' conditions are conjoined, and two values with the same lower bounds are equal.
-/
import Mathlib.Data.Finset.Fold
import Mathlib.Order.Lattice

namespace MinFold

variable {α : Type*} [LinearOrder α] {ι : Type*}

/-- `v` is the minimum of `c` and the family `g`: its lower bounds are their common lower bounds. -/
def IsMinOf (v c : α) (g : ι → α) : Prop := ∀ a, a ≤ v ↔ a ≤ c ∧ ∀ j, a ≤ g j

/-- Two minima of the same data are equal. -/
theorem IsMinOf.unique {v w c : α} {g : ι → α} (hv : IsMinOf v c g) (hw : IsMinOf w c g) : v = w :=
  le_antisymm ((hw v).mpr ((hv v).mp le_rfl)) ((hv w).mpr ((hw w).mp le_rfl))

/-- A fold of `min` from `c` over a whole finite index type is the minimum of `c` and the family. -/
theorem isMinOf_fold [Fintype ι] (c : α) (g : ι → α) : IsMinOf ((Finset.univ : Finset ι).fold min c g) c g := fun a => by
  rw [Finset.le_fold_min]
  exact ⟨fun h => ⟨h.1, fun j => h.2 j (Finset.mem_univ j)⟩, fun h => ⟨h.1, fun j _ => h.2 j⟩⟩

/-- The lower bounds of a fold of `min`, spelt out. -/
theorem le_fold_univ_iff [Fintype ι] (a c : α) (g : ι → α) :
    a ≤ (Finset.univ : Finset ι).fold min c g ↔ a ≤ c ∧ ∀ j, a ≤ g j := isMinOf_fold c g a

end MinFold
-- ==== Proof.Spec.lean ====
/-
  The semidual cost and its row minimum, as functions of the three argument arrays over the extended reals.

  For points x_i, y_j in 256 dimensions and a dual vector psi, the entry (i, j) of the cost is
      |x_i|^2 + |y_j|^2 - 2 <x_i, y_j> - psi_j .
  One program subtracts psi_j from |y_j|^2 before the row norm is added and the inner product removed, the other
  subtracts it last. Over the extended reals subtraction is addition of the negative and addition is a commutative
  monoid, so the two groupings are the same number whatever the operands are — infinities included: no finiteness is
  used. The first result is the mean over i of the minimum over j of that entry; the second is the mean of psi.

  A minimum over all 16384 columns taken tile by tile (512 columns at a time, each tile's minimum folded into a running
  value that starts at +infinity) is carried by its lower bounds: the bounds of the running value after tile k are the
  common bounds of the columns below (k + 1) * 512, and that set of columns splits into the columns below k * 512 and
  the 512 columns of tile k.
-/
import Idealize.ShloMosaic.PureOps.Ideal
import Idealize.ShloMosaic.PureOps.Ideal.Laws
import Idealize.ShloMosaic.Lib.ValueIdx
import proofs.«174300_j15375982920139_2_alg».proof.Proof.LibMinFold

noncomputable section

namespace Cert.SemiDual

open Idealize.ShloMosaic Idealize.ShloMosaic.ValueIdx

/-- A 16384 x 256 array of extended reals. -/
abbrev Mat : Type := (⟨2, ![16384, 256]⟩ : Shape).Idx → EReal
/-- A vector of 16384 extended reals. -/
abbrev Vec1 : Type := (⟨1, ![16384]⟩ : Shape).Idx → EReal

/-- The words both programs use, kept as their patterns: zero, two, +infinity and the count 16384. -/
def zero : EReal := Ideal.ofBits .f32 0x00000000#32
def two : EReal := Ideal.ofBits .f32 0x40000000#32
def top : EReal := Ideal.ofBits .f32 0x7F800000#32
def count : EReal := Ideal.ofBits .f32 0x46800000#32

/-- The squared norm of row `i`: the sum of its entries' squares, from zero. -/
def sqNorm (X : Mat) (i : Fin 16384) : EReal := zero + ∑ d : Fin 256, X (ix2 i d) * X (ix2 i d)

/-- The inner product of row `i` of `X` with row `j` of `Y`. -/
def inner (X Y : Mat) (i j : Fin 16384) : EReal := ∑ d : Fin 256, X (ix2 i d) * Y (ix2 j d)

/-- The cost entry with psi taken from |y_j|^2 first. -/
def costEarly (X Y : Mat) (P : Vec1) (i j : Fin 16384) : EReal :=
  (sqNorm X i + (sqNorm Y j - P (ix1 j))) - two * inner X Y i j

/-- The cost entry with psi taken last. -/
def costLate (X Y : Mat) (P : Vec1) (i j : Fin 16384) : EReal :=
  ((sqNorm X i + sqNorm Y j) - two * inner X Y i j) - P (ix1 j)

/-- Moving one subtrahend past another: addition of extended reals commutes and associates. -/
theorem sub_regroup (a b p c : EReal) : (a + (b - p)) - c = ((a + b) - c) - p := by
  simp only [sub_eq_add_neg, add_assoc, add_comm, add_left_comm]

/-- The two groupings are one number. -/
theorem costEarly_eq_costLate (X Y : Mat) (P : Vec1) (i j : Fin 16384) :
    costEarly X Y P i j = costLate X Y P i j := sub_regroup _ _ _ _

/-- The minimum over every column of row `i`'s cost, from +infinity. -/
def rowMin (X Y : Mat) (P : Vec1) (i : Fin 16384) : EReal :=
  (Finset.univ : Finset (Fin 16384)).fold min top (fun j => costLate X Y P i j)

/-- The mean over the rows of the row minimum. -/
def meanRowMin (X Y : Mat) (P : Vec1) : EReal := Ideal.div (zero + ∑ i : Fin 16384, rowMin X Y P i) count

/-- The mean of the dual vector. -/
def meanDual (P : Vec1) : EReal := Ideal.div (zero + ∑ j : Fin 16384, P (ix1 j)) count

/-- The lower bounds of the row minimum are the bounds of +infinity and of every column's cost. -/
theorem le_rowMin_iff (X Y : Mat) (P : Vec1) (i : Fin 16384) (a : EReal) :
    a ≤ rowMin X Y P i ↔ a ≤ top ∧ ∀ j : Fin 16384, a ≤ costLate X Y P i j :=
  MinFold.le_fold_univ_iff a top _

/-- A value whose lower bounds are those of +infinity and of every column's cost is the row minimum. -/
theorem eq_rowMin_of_bounds (X Y : Mat) (P : Vec1) (i : Fin 16384) (v : EReal)
    (h : ∀ a, a ≤ v ↔ a ≤ top ∧ ∀ j : Fin 16384, a ≤ costLate X Y P i j) : v = rowMin X Y P i :=
  le_antisymm ((le_rowMin_iff X Y P i v).mpr ((h v).mp le_rfl)) ((h _).mpr ((le_rowMin_iff X Y P i _).mp le_rfl))

/-- Column `q` of tile `k`, tiles of 512 columns. -/
def tileCol (k : Fin 32) (q : Fin 512) : Fin 16384 := ⟨k.val * 512 + q.val, by have := k.isLt; have := q.isLt; omega⟩

/-- Row `p` of row block `b`, blocks of 2048 rows. -/
def blockRow (b : Fin 8) (p : Fin 2048) : Fin 16384 := ⟨b.val * 2048 + p.val, by have := b.isLt; have := p.isLt; omega⟩

/-- A property of every column below (k + 1) * 512 is the property of every column below k * 512 together with the
    property of the 512 columns of tile `k`. -/
theorem forall_below_succ_tile (k : Fin 32) (φ : Fin 16384 → Prop) :
    (∀ j : Fin 16384, j.val < (k.val + 1) * 512 → φ j)
      ↔ (∀ j : Fin 16384, j.val < k.val * 512 → φ j) ∧ ∀ q : Fin 512, φ (tileCol k q) := by
  constructor
  · intro h
    exact ⟨fun j hj => h j (by omega), fun q => h (tileCol k q) (by show k.val * 512 + q.val < _; have := q.isLt; omega)⟩
  · rintro ⟨h1, h2⟩ j hj
    by_cases hlt : j.val < k.val * 512
    · exact h1 j hlt
    · have hq : j.val - k.val * 512 < 512 := by omega
      have e : j = tileCol k ⟨j.val - k.val * 512, hq⟩ := Fin.ext (by show j.val = k.val * 512 + (j.val - k.val * 512); omega)
      rw [e]; exact h2 _

end Cert.SemiDual

end
-- ==== Proof.LibColumns.lean ====
/-
  A column kept as a unit last axis, read at an index: the two layout steps of a `keepdims` reduction — a vector
  `[a]` cast to a column `[a, 1]`, and a column `[a, 1]` broadcast along its unit axis to `[a, b]`. General in the
  extents and in the element type; they complement the library's leading-unit-axis casts and its row broadcast.
-/
import Idealize.ShloMosaic.Lib.Pipeline.Value
import Idealize.ShloMosaic.Lib.ValueIdx

namespace Idealize.ShloMosaic.ValueIdx

variable {α : Type}

/-- An `[a]` array cast to the column `[a, 1]` reads, at `(i, u)`, the operand at `i`, whatever the unit coordinate
    `u`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Idealize.ShloMosaic.ValueIdx
-- ==== Proof.Payload.lean ====
/-
  One grid point's arithmetic, read at an index over the extended reals.

  At a point the body holds a block of 2048 rows of x, a block of 512 rows of y, the 2048 row norms as a column and
  the 512 values |y_j|^2 - psi_j as a row. Its one stored value is, at row p,
      min (running value at p) (min over the 512 columns q of ((norm p + row q) - 2 * <x_p, y_q>)) ,
  the inner minimum taken from +infinity. The matrix product into a zero accumulator is the plain sum of products over
  the 256 coordinates; the column and the row are spread over the 2048 x 512 tile by reading the column at its row and
  the row at its column; the reduction along the columns is a fold of `min` over the 512 columns of row p.
-/
import proofs.«174300_j15375982920139_2_alg».proof.Proof.Gen.KernelIdeal.Skeleton
import proofs.«174300_j15375982920139_2_alg».proof.Proof.Spec
import proofs.«174300_j15375982920139_2_alg».proof.Proof.LibColumns
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx Idealize.ShloMosaic.TcCoe
open Cert.SemiDual (top two)

/-- Row `p` of the reduced vector with column `k` put back is entry (p, k) of the tile. -/
theorem lift_row (h : S2048x512.Reduces [1] S2048) (p : Fin 2048) (k : Fin (S2048x512.size 1)) :
    h.lift (ix1 p) k = ix2 p (⟨k.val, k.isLt⟩ : Fin 512) := by
  funext c; apply Fin.ext
  fin_cases c <;> rfl

/-- The reduction of a 2048 x 512 tile along its columns, from +infinity, is at row `p` the fold of `min` over the
    512 entries of that row. -/
theorem tileMin_apply (v : FVec Ideal S2048x512 .f32) (h : S2048x512.Reduces [1] S2048) (hφ : FKind.Formats .f32)
    (hacc : (0x7F800000#32 : BitVec 32) = FKind.minimumf.neutral .f32 hφ) (p : Fin 2048) :
    multiReduction .minimumf [1] S2048 v 0x7F800000#32 h hφ hacc (ix1 p)
      = (Finset.univ : Finset (Fin 512)).fold min top (fun q => v (ix2 p q)) := by
  rw [multiReduction_minimumf_eq_fold]
  refine (h.fold_filter_drop_single _ _ v (ix1 p)).trans ?_
  have hf : (v ∘ h.lift (ix1 p)) = fun q : Fin 512 => v (ix2 p q) := funext fun k => congrArg v (lift_row h p k)
  exact congrArg (fun f => Finset.fold min top f (Finset.univ : Finset (Fin 512))) hf

/-- The operand indices of the tile's matrix product, coordinate by coordinate: the left operand is read at the
    output's row and the contraction index, the right operand at the output's column and the contraction index. -/
theorem lhs_row (i : S2048x512.Idx) (k : dot_S2048x256_S512x256_S2048x512_1_1_0_0_n_n.contr.Idx) : (dot_S2048x256_S512x256_S2048x512_1_1_0_0_n_n.lhsIdx i k 0).val = (i 0).val := by
  unfold DotDims.lhsIdx
  rw [dif_neg (show ¬(0 : Fin S2048x256.rank) ∈ dot_S2048x256_S512x256_S2048x512_1_1_0_0_n_n.lhsBatch by decide), dif_pos (show (0 : Fin S2048x256.rank) ∈ dot_S2048x256_S512x256_S2048x512_1_1_0_0_n_n.lhsNonContracting by decide)]
  rfl
theorem lhs_contr (i : S2048x512.Idx) (k : dot_S2048x256_S512x256_S2048x512_1_1_0_0_n_n.contr.Idx) : (dot_S2048x256_S512x256_S2048x512_1_1_0_0_n_n.lhsIdx i k 1).val = (k ⟨0, by decide⟩).val :=
  dot_S2048x256_S512x256_S2048x512_1_1_0_0_n_n.lhsIdx_val_of_single rfl i k
theorem rhs_row (i : S2048x512.Idx) (k : dot_S2048x256_S512x256_S2048x512_1_1_0_0_n_n.contr.Idx) : (dot_S2048x256_S512x256_S2048x512_1_1_0_0_n_n.rhsIdx i k 0).val = (i 1).val := by
  unfold DotDims.rhsIdx
  rw [dif_neg (show ¬(0 : Fin S512x256.rank) ∈ dot_S2048x256_S512x256_S2048x512_1_1_0_0_n_n.rhsBatch by decide), dif_pos (show (0 : Fin S512x256.rank) ∈ dot_S2048x256_S512x256_S2048x512_1_1_0_0_n_n.rhsNonContracting by decide)]
  rfl
theorem rhs_contr (i : S2048x512.Idx) (k : dot_S2048x256_S512x256_S2048x512_1_1_0_0_n_n.contr.Idx) : (dot_S2048x256_S512x256_S2048x512_1_1_0_0_n_n.rhsIdx i k 1).val = (k ⟨0, by decide⟩).val :=
  dot_S2048x256_S512x256_S2048x512_1_1_0_0_n_n.rhsIdx_val_of_single rfl i k

/-- The tile's matrix product into the zero accumulator: entry (p, q) is the inner product of row `p` of the x block
    with row `q` of the y block. -/
theorem product_apply (x0 : FVec Ideal S2048x256 .bf16) (x1 : FVec Ideal S512x256 .bf16) (p : Fin 2048) (q : Fin 512) :
    matmul dot_S2048x256_S512x256_S2048x512_1_1_0_0_n_n none x0 x1 (constant S2048x512 .f32 0x00000000#32) (ix2 p q)
      = ∑ d : Fin 256, x0 (ix2 p d) * x1 (ix2 q d) := by
  simp only [matmul]
  rw [Ideal.matmul_constant_zero_apply, ← Equiv.sum_comp (contrEquiv1 dot_S2048x256_S512x256_S2048x512_1_1_0_0_n_n 256 rfl rfl).symm]
  refine Finset.sum_congr rfl fun k _ => ?_
  have hk := contrEquiv1_symm_val dot_S2048x256_S512x256_S2048x512_1_1_0_0_n_n 256 rfl rfl k
  have el : dot_S2048x256_S512x256_S2048x512_1_1_0_0_n_n.lhsIdx (ix2 p q) ((contrEquiv1 dot_S2048x256_S512x256_S2048x512_1_1_0_0_n_n 256 rfl rfl).symm k) = ix2 p k := funext fun a => Fin.ext (by
    match a with
    | ⟨0, _⟩ => exact lhs_row _ _
    | ⟨1, _⟩ => exact (lhs_contr _ _).trans hk)
  have er : dot_S2048x256_S512x256_S2048x512_1_1_0_0_n_n.rhsIdx (ix2 p q) ((contrEquiv1 dot_S2048x256_S512x256_S2048x512_1_1_0_0_n_n 256 rfl rfl).symm k) = ix2 q k := funext fun a => Fin.ext (by
    match a with
    | ⟨0, _⟩ => exact rhs_row _ _
    | ⟨1, _⟩ => exact (rhs_contr _ _).trans hk)
  rw [el, er]

/-- The tile's entry (p, q) before the minimum: the row norm plus the row value, less twice the inner product. -/
def tileEntry (x0 : FVec Ideal S2048x256 .bf16) (x1 : FVec Ideal S512x256 .bf16) (x2 : FVec Ideal S2048x1 .f32)
    (x3 : FVec Ideal S1x512 .f32) (p : Fin 2048) (q : Fin 512) : EReal :=
  (x2 (ix2 p (0 : Fin 1)) + x3 (ix2 (0 : Fin 1) q)) - two * ∑ d : Fin 256, x0 (ix2 p d) * x1 (ix2 q d)

/-- The stored value at row `p`: the running value there against the minimum of the tile's row. -/
theorem pay2_apply (x0 : Vec Ideal S2048x256 .bf16) (x1 : Vec Ideal S512x256 .bf16) (x2 : Vec Ideal S2048x1 .f32)
    (x3 : Vec Ideal S1x512 .f32) (acc : Vec Ideal S2048x1 .f32) (p : Fin 2048) (u : Fin 1) :
    k0_pay2 (F := Ideal) x0 x1 x2 x3 acc (ix2 p u)
      = min (acc (ix2 p u)) ((Finset.univ : Finset (Fin 512)).fold min top (fun q => tileEntry x0 x1 x2 x3 p q)) := by
  unfold k0_pay2
  simp only [shapeCast_self]
  refine (minimumf_apply _ _ _).trans (congrArg (min (acc (ix2 p u))) ?_)
  refine (shapeCast_a_a1_apply _ _ p u).trans ?_
  refine (tileMin_apply _ _ _ _ p).trans ?_
  refine congrArg (fun f => Finset.fold min top f (Finset.univ : Finset (Fin 512))) (funext fun q => ?_)
  refine (subf_apply _ _ _).trans ?_
  unfold tileEntry
  refine congr (congrArg HSub.hSub ?_) ?_
  · refine (addf_apply _ _ _).trans ?_
    exact congr (congrArg HAdd.hAdd (broadcastTo_a1_ab_apply _ _ p q)) (broadcastTo_1b_ab_apply _ _ p q)
  · refine (mulf_apply _ _ _).trans ?_
    exact congr (congrArg HMul.hMul rfl) (product_apply x0 x1 p q)

/-- The value the first column tile stores before anything else: +infinity everywhere. -/
theorem pay1_apply (i : S2048x1.Idx) : k0_pay1 (F := Ideal) i = top := by
  unfold k0_pay1
  simp only [shapeCast_self]
  rfl

end Cert.KernelIdeal.Tile

end
-- ==== Proof.LibBroadcastInDim.lean ====
/-
  `broadcast_in_dim` read at an index, for the layouts a host program meets when it spreads a per-row or per-column
  quantity over a matrix: a scalar splat to any shape; a vector `[a]` laid out as the column `[a, 1]` or `[b]` as the
  row `[1, b]`; the column and the row spread to `[a, b]`; a vector `[c]` laid out as `[1, 1, c]` and spread to
  `[a, b, c]`. General in the extents and in the element type: each result entry reads the one operand entry that
  shares its coordinates on the axes the operand keeps.
-/
import Idealize.ShloMosaic.Lib.Pipeline.Value
import Idealize.ShloMosaic.Lib.ValueIdx

namespace Idealize.ShloMosaic.ValueIdx

variable {α : Type}

/-- A scalar splat reads the scalar everywhere. -/
theorem broadcastInDim_scalar_apply {t : Shape} (x : (⟨0, ![]⟩ : Shape).Idx → α) (dims : Fin 0 → Fin t.rank)
    (h : (⟨0, ![]⟩ : Shape).BroadcastsInDim t dims) (j : t.Idx) : broadcastInDim t dims h x j = x ix0 :=
  broadcastInDim_apply dims h x j ix0 fun a => a.elim0

/-- A vector `[a]` as the column `[a, 1]`: entry `(i, u)` is the vector's entry `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) := by
  refine broadcastInDim_apply _ h x _ (ix1 i) fun ax => ?_
  match ax with
  | ⟨0, _⟩ =>
    show i.val = if a = 1 then 0 else i.val
    split
    · have := i.isLt; omega
    · rfl

/-- A column `[a, 1]` spread to `[a, b]`: entry `(p, c)` is the column's entry of row `p`. -/
theorem broadcastInDim_a1_ab_apply {a b : ℕ} (x : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h x (ix2 p c) = x (ix2 p (0 : Fin 1)) := by
  refine broadcastInDim_apply _ h x _ (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- A vector `[b]` as the row `[1, b]`: entry `(u, c)` is the vector's entry `c`. -/
theorem broadcastInDim_b_1b_apply {b : ℕ} (x : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ ![1] h x (ix2 u c) = x (ix1 c) := by
  refine broadcastInDim_apply _ h x _ (ix1 c) fun ax => ?_
  match ax with
  | ⟨0, _⟩ =>
    show c.val = if b = 1 then 0 else c.val
    split
    · have := c.isLt; omega
    · rfl

/-- A row `[1, b]` spread to `[a, b]`: entry `(p, c)` is the row's entry `c`. -/
theorem broadcastInDim_1b_ab_apply {a b : ℕ} (x : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h x (ix2 p c) = x (ix2 (0 : Fin 1) c) := by
  refine broadcastInDim_apply _ h x _ (ix2 (0 : Fin 1) c) fun ax => ?_
  match ax with
  | ⟨0, _⟩ =>
    show 0 = if (1 : ℕ) = 1 then 0 else p.val
    rw [if_pos rfl]
  | ⟨1, _⟩ =>
    show c.val = if b = 1 then 0 else c.val
    split
    · have := c.isLt; omega
    · rfl

/-- A vector `[c]` as `[1, 1, c]`: entry `(u, v, k)` is the vector's entry `k`. -/
theorem broadcastInDim_c_11c_apply {c : ℕ} (x : (⟨1, ![c]⟩ : Shape).Idx → α)
    (h : (⟨1, ![c]⟩ : Shape).BroadcastsInDim ⟨3, ![1, 1, c]⟩ (![2] : Fin 1 → Fin 3)) (u v : Fin 1) (k : Fin c) :
    broadcastInDim ⟨3, ![1, 1, c]⟩ ![2] h x (ix3 u v k) = x (ix1 k) := by
  refine broadcastInDim_apply _ h x _ (ix1 k) fun ax => ?_
  match ax with
  | ⟨0, _⟩ =>
    show k.val = if c = 1 then 0 else k.val
    split
    · have := k.isLt; omega
    · rfl

/-- `[1, 1, c]` spread to `[a, b, c]`: entry `(p, q, k)` is the operand's entry `(0, 0, k)`. -/
theorem broadcastInDim_11c_abc_apply {a b c : ℕ} (x : (⟨3, ![1, 1, c]⟩ : Shape).Idx → α)
    (h : (⟨3, ![1, 1, c]⟩ : Shape).BroadcastsInDim ⟨3, ![a, b, c]⟩ (![0, 1, 2] : Fin 3 → Fin 3)) (p : Fin a) (q : Fin b) (k : Fin c) :
    broadcastInDim ⟨3, ![a, b, c]⟩ ![0, 1, 2] h x (ix3 p q k) = x (ix3 (0 : Fin 1) (0 : Fin 1) k) := by
  refine broadcastInDim_apply _ h x _ (ix3 (0 : Fin 1) (0 : Fin 1) k) fun ax => ?_
  match ax with
  | ⟨0, _⟩ =>
    show 0 = if (1 : ℕ) = 1 then 0 else p.val
    rw [if_pos rfl]
  | ⟨1, _⟩ =>
    show 0 = if (1 : ℕ) = 1 then 0 else q.val
    rw [if_pos rfl]
  | ⟨2, _⟩ =>
    show k.val = if c = 1 then 0 else k.val
    split
    · have := k.isLt; omega
    · rfl

end Idealize.ShloMosaic.ValueIdx
-- ==== Proof.Blocks.lean ====
/-
  The four input blocks of a grid point, read at an index in terms of the three argument arrays.

  The host lines before the region leave: x and y themselves (the change of float format is the identity over the
  extended reals), the column of squared row norms of x, and the row of |y_j|^2 - psi_j. The grid is 8 row blocks by
  32 column tiles, the column tile moving fastest: point t is row block t / 32 and column tile t % 32. At that point the
  x block holds rows (t / 32) * 2048 + p of x, the y block rows (t % 32) * 512 + q of y, the norm column the same rows
  of the norms, and the row block the same columns of the row. So entry (p, q) of the point's tile is the cost of
  row (t / 32) * 2048 + p against column (t % 32) * 512 + q, psi taken from |y_j|^2 first.
-/
import proofs.«174300_j15375982920139_2_alg».proof.Proof.Gen.KernelIdeal.Frame
import proofs.«174300_j15375982920139_2_alg».proof.Proof.Spec
import proofs.«174300_j15375982920139_2_alg».proof.Proof.Payload
import proofs.«174300_j15375982920139_2_alg».proof.Proof.LibBroadcastInDim
import Idealize.ShloMosaic.Lib.ValueIdx
import Idealize.ShloMosaic.Lib.ValueLayout
import Idealize.ShloMosaic.Lib.Pipeline.Value
import Idealize.ShloMosaic.Lib.StableHlo.Run
import Idealize.ShloMosaic.Lib.Tactic
import Idealize.ShloMosaic.PureOps.Ideal.Laws

set_option maxRecDepth 16384

noncomputable section

namespace Cert.KernelIdeal.Blocks

open Cert.KernelIdeal Cert.KernelIdeal.Gen Idealize.ShloMosaic Idealize.ShloMosaic.ValueIdx Idealize.ShloMosaic.TcCoe Idealize.SL.Sem
open Cert.SemiDual (Mat Vec1 zero two top sqNorm costEarly blockRow tileCol)
open Cert.KernelIdeal.Tile (tileEntry)

variable (m : (ℓ : Loc nD τ sig) → Buf (Elt Ideal) ℓ)

/-- The three argument arrays on core `c`. -/
abbrev argX (c : Dev nD) : Mat := m ((c : Thread nD τ).loc main_arg0)
abbrev argY (c : Dev nD) : Mat := m ((c : Thread nD τ).loc main_arg1)
abbrev argP (c : Dev nD) : Vec1 := m ((c : Thread nD τ).loc main_arg2)

/-- A row's sum of squares on the host, from zero, is the squared norm of that row. -/
theorem rowSq_apply (x : FVec Ideal S16384x256 .f32) (i : Fin 16384) :
    Host.reduceAdd (mulf x x) (constant S_ .f32 0x00000000#32) reducesTo_S16384x256_S16384_d1 h_S_ (ix1 i) = sqNorm x i := by
  simp only [Host.reduceAdd, Ideal.hostReduceAdd_def]
  rw [Ideal.hostReduceAdd_single reducesTo_S16384x256_S16384_d1 (by decide)]
  unfold sqNorm
  refine congrArg (zero + ·) (Finset.sum_congr rfl fun k _ => ?_)
  have e : (Shape.Reduces.lift (s := S16384x256) (t := S16384) (a := 1) (by decide) (ix1 i) k) = ix2 i (⟨k.val, k.isLt⟩ : Fin 256) :=
    funext fun a => Fin.ext (by match a with | ⟨0, _⟩ => rfl | ⟨1, _⟩ => rfl)
  exact (congrArg (mulf x x) e).trans rfl

/-- What the region finds in its four input arrays. -/
theorem arr_x (c : Dev nD) : (V m c main_v0 : S16384x256.Idx → EReal) = argX m c := by
  show StableHlo.after hostOps0 (fun b => m (c, b)) (Proc.devRef .tc main_v0) = _
  after_results; rfl

theorem arr_y (c : Dev nD) : (V m c main_v1 : S16384x256.Idx → EReal) = argY m c := by
  show StableHlo.after hostOps0 (fun b => m (c, b)) (Proc.devRef .tc main_v1) = _
  after_results; rfl

theorem arr_norms (c : Dev nD) : (V m c main_v4 : S16384x1.Idx → EReal)
    = broadcastInDim S16384x1 ![0] bcast_S16384_S16384x1_0
        (Host.reduceAdd (mulf (argX m c) (argX m c)) (constant (F := Ideal) S_ .f32 0x00000000#32) reducesTo_S16384x256_S16384_d1 h_S_) := by
  show StableHlo.after hostOps0 (fun b => m (c, b)) (Proc.devRef .tc main_v4) = _
  after_results

theorem arr_row (c : Dev nD) : (V m c main_v8 : S1x16384.Idx → EReal)
    = shapeCast S1x16384 (subf (Host.reduceAdd (mulf (argY m c) (argY m c)) (constant (F := Ideal) S_ .f32 0x00000000#32) reducesTo_S16384x256_S16384_d1 h_S_) (argP m c))
        shapeCasts_S16384_S1x16384 := by
  show StableHlo.after hostOps0 (fun b => m (c, b)) (Proc.devRef .tc main_v8) = _
  after_results; rfl

/-- The norm column at row `i`, and the row at column `j`. -/
theorem arr_norms_apply (c : Dev nD) (i : Fin 16384) (u : Fin 1) :
    (V m c main_v4 : S16384x1.Idx → EReal) (ix2 i u) = sqNorm (argX m c) i := by
  rw [arr_norms]
  exact (broadcastInDim_a_a1_apply _ _ i u).trans (rowSq_apply _ i)

theorem arr_row_apply (c : Dev nD) (u : Fin 1) (j : Fin 16384) :
    (V m c main_v8 : S1x16384.Idx → EReal) (ix2 u j) = sqNorm (argY m c) j - argP m c (ix1 j) := by
  rw [arr_row]
  refine (shapeCast_a_1a_apply _ _ u j).trans ?_
  exact (subf_apply _ _ _).trans (congrArg (· - argP m c (ix1 j)) (rowSq_apply _ j))

/-! ## The grid: row block and column tile of a point, and the blocks read at an index -/

/-- Point `t`'s row block (of 8) and column tile (of 32): the column tile moves fastest. -/
def rowBlock (t : Fin cfg0.N) : Fin 8 := ⟨t.val / 32, by have := t.isLt; have hN : cfg0.N = 256 := N_0; omega⟩
def colTile (t : Fin cfg0.N) : Fin 32 := ⟨t.val % 32, Nat.mod_lt _ (by decide)⟩

/-- The printed index maps in closed form, decided once over the 256 points. -/
theorem idx_facts : ∀ t : Fin cfg0.N,
    win0_0.index t (0 : Fin 2) = t.val / 32 ∧ win0_0.index t (1 : Fin 2) = 0
    ∧ win0_1.index t (0 : Fin 2) = t.val % 32 ∧ win0_1.index t (1 : Fin 2) = 0
    ∧ win0_2.index t (0 : Fin 2) = t.val / 32 ∧ win0_2.index t (1 : Fin 2) = 0
    ∧ win0_3.index t (0 : Fin 2) = 0 ∧ win0_3.index t (1 : Fin 2) = t.val % 32
    ∧ win0_4.index t (0 : Fin 2) = t.val / 32 ∧ win0_4.index t (1 : Fin 2) = 0 :=
  (by decide +kernel : ∀ t : Fin grid0.N, _)

/-- The x block at a point holds the rows of its row block. -/
theorem blk_x (c : Dev nD) (t : Fin cfg0.N) (p : Fin 2048) (d : Fin 256) :
    (iblk m c 0 t : Vec Ideal S2048x256 .bf16) (ix2 p d) = argX m c (ix2 (blockRow (rowBlock t) p) d) := by
  obtain ⟨e0, e1, -⟩ := idx_facts t
  unfold iblk
  rw [View.read_apply]
  refine (congrFun (arr_x m c) _).trans (congrArg (argX m c) (funext fun a => Fin.ext ?_))
  match a with
  | ⟨0, _⟩ => show win0_0.index t (0 : Fin 2) * 2048 + 1 * p.val = t.val / 32 * 2048 + p.val; rw [e0]; omega
  | ⟨1, _⟩ => show win0_0.index t (1 : Fin 2) * 256 + 1 * d.val = d.val; rw [e1]; omega

/-- The y block holds the rows of its column tile. -/
theorem blk_y (c : Dev nD) (t : Fin cfg0.N) (q : Fin 512) (d : Fin 256) :
    (iblk m c 1 t : Vec Ideal S512x256 .bf16) (ix2 q d) = argY m c (ix2 (tileCol (colTile t) q) d) := by
  obtain ⟨-, -, e0, e1, -⟩ := idx_facts t
  unfold iblk
  rw [View.read_apply]
  refine (congrFun (arr_y m c) _).trans (congrArg (argY m c) (funext fun a => Fin.ext ?_))
  match a with
  | ⟨0, _⟩ => show win0_1.index t (0 : Fin 2) * 512 + 1 * q.val = t.val % 32 * 512 + q.val; rw [e0]; omega
  | ⟨1, _⟩ => show win0_1.index t (1 : Fin 2) * 256 + 1 * d.val = d.val; rw [e1]; omega

/-- The norm block holds the squared norms of the row block's rows. -/
theorem blk_norms (c : Dev nD) (t : Fin cfg0.N) (p : Fin 2048) :
    (iblk m c 2 t : Vec Ideal S2048x1 .f32) (ix2 p (0 : Fin 1)) = sqNorm (argX m c) (blockRow (rowBlock t) p) := by
  obtain ⟨-, -, -, -, e0, e1, -⟩ := idx_facts t
  unfold iblk
  rw [View.read_apply]
  refine Eq.trans (congrArg (V m c main_v4 : S16384x1.Idx → EReal) (funext fun a => Fin.ext ?_)) (arr_norms_apply m c (blockRow (rowBlock t) p) 0)
  match a with
  | ⟨0, _⟩ => show win0_2.index t (0 : Fin 2) * 2048 + 1 * p.val = t.val / 32 * 2048 + p.val; rw [e0]; omega
  | ⟨1, _⟩ => show win0_2.index t (1 : Fin 2) * 1 + 1 * 0 = 0; rw [e1]

/-- The row block holds |y_j|^2 - psi_j at the column tile's columns. -/
theorem blk_row (c : Dev nD) (t : Fin cfg0.N) (q : Fin 512) :
    (iblk m c 3 t : Vec Ideal S1x512 .f32) (ix2 (0 : Fin 1) q)
      = sqNorm (argY m c) (tileCol (colTile t) q) - argP m c (ix1 (tileCol (colTile t) q)) := by
  obtain ⟨-, -, -, -, -, -, e0, e1, -⟩ := idx_facts t
  unfold iblk
  rw [View.read_apply]
  refine Eq.trans (congrArg (V m c main_v8 : S1x16384.Idx → EReal) (funext fun a => Fin.ext ?_)) (arr_row_apply m c 0 (tileCol (colTile t) q))
  match a with
  | ⟨0, _⟩ => show win0_3.index t (0 : Fin 2) * 1 + 1 * 0 = 0; rw [e0]
  | ⟨1, _⟩ => show win0_3.index t (1 : Fin 2) * 512 + 1 * q.val = t.val % 32 * 512 + q.val; rw [e1]; omega

/-- So entry (p, q) of the point's tile is the cost of its row against its column, psi taken first. -/
theorem tileEntry_eq (c : Dev nD) (t : Fin cfg0.N) (p : Fin 2048) (q : Fin 512) :
    tileEntry (iblk m c 0 t) (iblk m c 1 t) (iblk m c 2 t) (iblk m c 3 t) p q
      = costEarly (argX m c) (argY m c) (argP m c) (blockRow (rowBlock t) p) (tileCol (colTile t) q) := by
  unfold tileEntry costEarly Cert.SemiDual.inner
  refine congr (congrArg HSub.hSub (congr (congrArg HAdd.hAdd (blk_norms m c t p)) (blk_row m c t q))) ?_
  exact congrArg (two * ·) (Finset.sum_congr rfl fun d _ => congr (congrArg HMul.hMul (blk_x m c t p d)) (blk_y m c t q d))

end Cert.KernelIdeal.Blocks

end
-- ==== Proof.Pieces.lean ====
/-
  What one grid point leaves behind, case by case, as values.

  The body keeps a running column (2048 entries) in a scratch buffer across the 32 column tiles of a row block.
  At the first tile it stores +infinity there, reads it back and stores the minimum of that with the tile's row
  minima; at every later tile it stores the minimum of what the tile before left with the tile's row minima; at the
  last tile it also copies the scratch, just stored, into the output block. Each store covers the whole buffer from
  offset zero, so what a buffer ends holding is the last value stored into it, and a load of a buffer just stored whole
  reads that value.
-/
import proofs.«174300_j15375982920139_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- First column tile: the scratch ends at the accumulated value over the +infinity column. -/
theorem scratch_first (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .f32) (harg6 : arg6.IsWhole) (arg7 : Memref sig .tc .vmem S2048x1 .f32) (harg7 : arg7.IsWhole) (hc0 : cond0_0 i) (hc1 : ¬cond0_1 i) (x0 : Vec F S2048x256 .bf16) (x1 : Vec F S512x256 .bf16) (x2 : Vec F S2048x1 .f32) (x3 : Vec F S1x512 .f32) :
    sout0_A_0 c i arg2 harg2 arg3 harg3 arg4 harg4 arg5 harg5 arg6 harg6 arg7 harg7 hc0 hc1 x0 x1 x2 x3 = k0_pay2 x0 x1 x2 x3 k0_pay1 := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S2048x1) hz, View.readCov_unit_zero (S := S2048x1) _ hz]
  simp only [View.readAt_eq_ld, harg2.read_unread, harg3.read_unread, harg4.read_unread, harg5.read_unread, harg7.read_unread, View.ld_unit_zero (S := S2048x256) hz, View.ld_unit_zero (S := S512x256) hz, View.ld_unit_zero (S := S2048x1) hz, View.ld_unit_zero (S := S1x512) hz]

/-- A middle column tile: the scratch ends at the accumulated value over what the tile before left. -/
theorem scratch_middle (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : ¬cond0_1 i) (x0 : Vec F S2048x256 .bf16) (x1 : Vec F S512x256 .bf16) (x2 : Vec F S2048x1 .f32) (x3 : Vec F S1x512 .f32) (xs0 : Vec F S2048x1 .f32) :
    sout0_B_0 c i arg2 harg2 arg3 harg3 arg4 harg4 arg5 harg5 arg6 harg6 arg7 harg7 hc0 hc1 x0 x1 x2 x3 xs0 = k0_pay2 x0 x1 x2 x3 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero hz]
  simp only [View.readAt_eq_ld, harg2.read_unread, harg3.read_unread, harg4.read_unread, harg5.read_unread, harg7.read_unread, View.ld_unit_zero (S := S2048x256) hz, View.ld_unit_zero (S := S512x256) hz, View.ld_unit_zero (S := S2048x1) hz, View.ld_unit_zero (S := S1x512) hz]

/-- The last column tile: the scratch likewise, -/
theorem scratch_last (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : cond0_1 i) (x0 : Vec F S2048x256 .bf16) (x1 : Vec F S512x256 .bf16) (x2 : Vec F S2048x1 .f32) (x3 : Vec F S1x512 .f32) (xs0 : Vec F S2048x1 .f32) :
    sout0_C_0 c i arg2 harg2 arg3 harg3 arg4 harg4 arg5 harg5 arg6 harg6 arg7 harg7 hc0 hc1 x0 x1 x2 x3 xs0 = k0_pay2 x0 x1 x2 x3 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz]
  simp only [View.readAt_eq_ld, harg2.read_unread, harg3.read_unread, harg4.read_unread, harg5.read_unread, harg7.read_unread, View.ld_unit_zero (S := S2048x256) hz, View.ld_unit_zero (S := S512x256) hz, View.ld_unit_zero (S := S2048x1) hz, View.ld_unit_zero (S := S1x512) hz]

/-- and the output block is the scratch just stored. -/
theorem out_last (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : cond0_1 i) (x0 : Vec F S2048x256 .bf16) (x1 : Vec F S512x256 .bf16) (x2 : Vec F S2048x1 .f32) (x3 : Vec F S1x512 .f32) (xs0 : Vec F S2048x1 .f32) :
    out0_C_4 c i arg2 harg2 arg3 harg3 arg4 harg4 arg5 harg5 arg6 harg6 arg7 harg7 hc0 hc1 x0 x1 x2 x3 xs0 = k0_pay2 x0 x1 x2 x3 xs0 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz, View.readCov_unit_zero (S := S2048x1) _ hz]
  simp only [View.readAt_eq_ld, harg2.read_unread, harg3.read_unread, harg4.read_unread, harg5.read_unread, harg7.read_unread, View.ld_unit_zero (S := S2048x256) hz, View.ld_unit_zero (S := S512x256) hz, View.ld_unit_zero (S := S2048x1) hz, View.ld_unit_zero (S := S1x512) hz]

end Cert.KernelIdeal.Pieces

end
-- ==== Proof.Grid.lean ====
/-
  The running column across the grid, and the output column after the run.

  Within a row block the 32 column tiles are visited in order. After tile k the running value at row p has, as its
  lower bounds, the common lower bounds of +infinity and of the cost of that row against every column below
  (k + 1) * 512: at the first tile the running value starts at +infinity and takes in the tile's 512 columns; at each
  later tile it takes in 512 more. After the last tile every column is below 32 * 512 = 16384, so the running value is
  the minimum of the row's cost over all columns, and that is what the last tile copies to the output block. The
  output's blocks — one per row block, written back at the last tile — tile the output column, so the column ends
  holding the row minimum of every row.
-/
import proofs.«174300_j15375982920139_2_alg».proof.Proof.Gen.KernelIdeal.Frame
import proofs.«174300_j15375982920139_2_alg».proof.Proof.Spec
import proofs.«174300_j15375982920139_2_alg».proof.Proof.Payload
import proofs.«174300_j15375982920139_2_alg».proof.Proof.Pieces
import proofs.«174300_j15375982920139_2_alg».proof.Proof.Blocks
import proofs.«174300_j15375982920139_2_alg».proof.Proof.LibMinFold
import Idealize.ShloMosaic.Lib.ValueIdx
import Idealize.ShloMosaic.Lib.Pipeline.Value

set_option maxRecDepth 16384

noncomputable section

namespace Cert.KernelIdeal.Grid

open Cert.KernelIdeal Cert.KernelIdeal.Gen Idealize.ShloMosaic Idealize.ShloMosaic.ValueIdx Idealize.ShloMosaic.TcCoe Idealize.SL.Sem
open Idealize.ShloMosaic.Pipeline (Dat)
open Cert.SemiDual (top costEarly costLate costEarly_eq_costLate rowMin eq_rowMin_of_bounds blockRow tileCol forall_below_succ_tile)
open Cert.KernelIdeal.Tile (pay2_apply pay1_apply tileEntry)
open Cert.KernelIdeal.Pieces (scratch_first scratch_middle scratch_last out_last)
open Cert.KernelIdeal.Blocks (argX argY argP rowBlock colTile tileEntry_eq idx_facts)

variable (m : (ℓ : Loc nD τ sig) → Buf (Elt Ideal) ℓ)

/-! ## What the scratch holds after a point, as the point's payload -/

theorem scratch_at_first (c : Dev nD) (t : Fin cfg0.N) (h0 : t.val % 32 = 0) :
    (outsAt0 m c t.val t.isLt).2 = k0_pay2 (iblk m c 0 t) (iblk m c 1 t) (iblk m c 2 t) (iblk m c 3 t) (k0_pay1 (F := Ideal)) := by
  have h1 : ¬t.val % 32 = 31 := by omega
  rw [outsAt0_A m c t h0 h1]
  dsimp only
  exact scratch_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)

theorem scratch_at_later (c : Dev nD) (t : Fin cfg0.N) (h0 : ¬t.val % 32 = 0) :
    (outsAt0 m c t.val t.isLt).2 = k0_pay2 (iblk m c 0 t) (iblk m c 1 t) (iblk m c 2 t) (iblk m c 3 t) (outsAt0 m c (t.val - 1) (Nat.lt_of_le_of_lt (Nat.sub_le _ _) t.isLt)).2 := by
  by_cases h1 : t.val % 32 = 31
  · rw [outsAt0_C m c t h0 h1]
    dsimp only
    exact scratch_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2
  · rw [outsAt0_B m c t h0 h1]
    dsimp only
    exact scratch_middle (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2

/-- At a last tile the output block is the scratch. -/
theorem out_at_last (c : Dev nD) (t : Fin cfg0.N) (h0 : ¬t.val % 32 = 0) (h1 : t.val % 32 = 31) :
    (outsAt0 m c t.val t.isLt).1 = (outsAt0 m c t.val t.isLt).2 := by
  rw [outsAt0_C m c t h0 h1]
  dsimp only
  exact (out_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2).trans
    (scratch_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2).symm

/-! ## The lower bounds of the running column -/

/-- One tile's step: the bounds of the stored value at row `p` are the bounds of the value carried in and of the
    tile's 512 costs of that row (and of +infinity, where the tile's minimum starts). -/
theorem tile_bounds (c : Dev nD) (t : Fin cfg0.N) (p : Fin 2048) (a : EReal) (acc : Vec Ideal S2048x1 .f32) :
    a ≤ k0_pay2 (F := Ideal) (iblk m c 0 t) (iblk m c 1 t) (iblk m c 2 t) (iblk m c 3 t) acc (ix2 p (0 : Fin 1))
      ↔ a ≤ acc (ix2 p (0 : Fin 1)) ∧ (a ≤ top ∧ ∀ q : Fin 512,
          a ≤ costEarly (argX m c) (argY m c) (argP m c) (blockRow (rowBlock t) p) (tileCol (colTile t) q)) := by
  have e := pay2_apply (iblk m c 0 t) (iblk m c 1 t) (iblk m c 2 t) (iblk m c 3 t) acc p (0 : Fin 1)
  rw [e, le_min_iff, MinFold.le_fold_univ_iff]
  exact and_congr Iff.rfl (and_congr Iff.rfl (forall_congr' fun q => by rw [tileEntry_eq m c t p q]))

/-- After point `t` the running value at row `p` is bounded below exactly by the common lower bounds of +infinity
    and of the row's cost against every column below (its column tile + 1) * 512. -/
def BoundsAt (c : Dev nD) (t : Fin cfg0.N) : Prop :=
  ∀ (p : Fin 2048) (a : EReal), a ≤ (outsAt0 m c t.val t.isLt).2 (ix2 p (0 : Fin 1)) ↔
    a ≤ top ∧ ∀ j : Fin 16384, j.val < ((colTile t).val + 1) * 512 →
      a ≤ costEarly (argX m c) (argY m c) (argP m c) (blockRow (rowBlock t) p) j

theorem first_step (c : Dev nD) (t : Fin cfg0.N) (h0 : t.val % 32 = 0) : BoundsAt m c t := by
  unfold BoundsAt
  intro p a
  rw [scratch_at_first m c t h0]
  refine (tile_bounds m c t p a (k0_pay1 (F := Ideal))).trans ?_
  rw [pay1_apply, forall_below_succ_tile (colTile t)]
  have hz : (colTile t).val = 0 := h0
  constructor
  · rintro ⟨ht, _, hq⟩
    exact ⟨ht, fun j hj => absurd hj (by rw [hz]; omega), hq⟩
  · rintro ⟨ht, _, hq⟩
    exact ⟨ht, ht, hq⟩

theorem later_step (c : Dev nD) (t : Fin cfg0.N) (h0 : ¬t.val % 32 = 0)
    (ih : BoundsAt m c ⟨t.val - 1, Nat.lt_of_le_of_lt (Nat.sub_le _ _) t.isLt⟩) : BoundsAt m c t := by
  unfold BoundsAt at ih ⊢
  intro p a
  rw [scratch_at_later m c t h0]
  refine (tile_bounds m c t p a _).trans ?_
  have hr : rowBlock (⟨t.val - 1, Nat.lt_of_le_of_lt (Nat.sub_le _ _) t.isLt⟩ : Fin cfg0.N) = rowBlock t :=
    Fin.ext (by show (t.val - 1) / 32 = t.val / 32; omega)
  have hc : (colTile (⟨t.val - 1, Nat.lt_of_le_of_lt (Nat.sub_le _ _) t.isLt⟩ : Fin cfg0.N)).val + 1 = (colTile t).val := by
    show (t.val - 1) % 32 + 1 = t.val % 32; omega
  have ih' := ih p a
  rw [hr, hc] at ih'
  rw [forall_below_succ_tile (colTile t)]
  constructor
  · rintro ⟨hprev, _, hq⟩
    exact ⟨(ih'.mp hprev).1, (ih'.mp hprev).2, hq⟩
  · rintro ⟨ht, hlow, hq⟩
    exact ⟨ih'.mpr ⟨ht, hlow⟩, ht, hq⟩

/-- The bounds hold after every point, by induction along the grid. -/
theorem bounds (c : Dev nD) : ∀ (n : ℕ) (hn : n < cfg0.N), BoundsAt m c ⟨n, hn⟩ := by
  intro n
  induction n with
  | zero => intro hn; exact first_step m c ⟨0, hn⟩ rfl
  | succ n ih =>
    intro hn
    by_cases h0 : (n + 1) % 32 = 0
    · exact first_step m c ⟨n + 1, hn⟩ h0
    · exact later_step m c ⟨n + 1, hn⟩ h0 (ih (Nat.lt_of_succ_lt hn))

/-- At a last tile the output block holds, at row `p`, the minimum of the row's cost over every column. -/
theorem last_value (c : Dev nD) (t : Fin cfg0.N) (h31 : t.val % 32 = 31) (p : Fin 2048) :
    (outsAt0 m c t.val t.isLt).1 (ix2 p (0 : Fin 1)) = rowMin (argX m c) (argY m c) (argP m c) (blockRow (rowBlock t) p) := by
  have h0 : ¬t.val % 32 = 0 := by omega
  rw [out_at_last m c t h0 h31]
  refine eq_rowMin_of_bounds _ _ _ _ _ fun a => ?_
  have hb : BoundsAt m c t := bounds m c t.val t.isLt
  unfold BoundsAt at hb
  refine (hb p a).trans ?_
  have hc : ((colTile t).val + 1) * 512 = 16384 := by show (t.val % 32 + 1) * 512 = 16384; omega
  constructor
  · rintro ⟨ht, h⟩
    exact ⟨ht, fun j => by rw [← costEarly_eq_costLate]; exact h j (by rw [hc]; exact j.isLt)⟩
  · rintro ⟨ht, h⟩
    exact ⟨ht, fun j _ => by rw [costEarly_eq_costLate]; exact h j⟩

/-! ## The output column after the run -/

/-- The row minimum of the row with a given number (outside the 16384 rows a value nothing consults). -/
def rowMinAt (c : Dev nD) (n : ℕ) : EReal := if h : n < 16384 then rowMin (argX m c) (argY m c) (argP m c) ⟨n, h⟩ else top

theorem rowMinAt_val (c : Dev nD) (i : Fin 16384) : rowMinAt m c i.val = rowMin (argX m c) (argY m c) (argP m c) i := dif_pos i.isLt

/-- The column of row minima. -/
def minColumn (c : Dev nD) : S16384x1.Idx → EReal := fun i => rowMinAt m c (i 0).val

/-- What a last tile writes back is its block of the column of row minima. -/
theorem flushed_eq (c : Dev nD) (t : Fin cfg0.N) (hf : (cfg0.win 4).flush t = true) :
    (dats m 0 c).flushed 4 t = ((cfg0.win 4).blk t).view.read (Elt Ideal) (minColumn m c) := by
  have h31 : t.val % 32 = 31 := (flush0_4 t).mp hf
  obtain ⟨-, -, -, -, -, -, -, -, e0, e1⟩ := idx_facts t
  show (cfg0.win 4).cut (grid0.coords t) ((dats m 0 c).after 4 t) = _
  rw [after0_4]
  funext y
  obtain ⟨p, u, rfl⟩ : ∃ (p : Fin 2048) (u : Fin 1), y = ix2 p u := ⟨y 0, y 1, eq_ix2 y⟩
  obtain rfl : u = 0 := Subsingleton.elim _ _
  rw [View.read_apply]
  refine (last_value m c t h31 p).trans ((rowMinAt_val m c (blockRow (rowBlock t) p)).symm.trans ?_)
  unfold minColumn
  refine congrArg (rowMinAt m c) ?_
  show t.val / 32 * 2048 + p.val = win0_4.index t (0 : Fin 2) * 2048 + 1 * p.val
  rw [e0]; omega

/-- An index of the output column is in point `t`'s block iff each coordinate is in the block's range. -/
theorem mem_blk (t : Fin cfg0.N) (i : S16384x1.Idx) :
    i ∈ ((cfg0.win 4).blk t).view.set ↔ ∀ a : Fin 2, win0_4.index t a * S2048x1.size a ≤ (i a).val ∧ (i a).val < win0_4.index t a * S2048x1.size a + S2048x1.size a := by
  show i ∈ ((View.whole main_v9).slice (win0_4.rect t)).set ↔ _
  rw [View.set_slice_whole, Rect.mem_set_unit]
  exact Iff.rfl

/-- Every row of the output column lies in the block the last tile of its row block writes back. -/
theorem cover (i : S16384x1.Idx) : ∃ t : Fin cfg0.N, (cfg0.win 4).flush t = true ∧ i ∈ ((cfg0.win 4).blk t).view.set := by
  have hi0 : (i 0).val < 16384 := idx2_lt0 i
  have hi1 : (i 1).val < 1 := idx2_lt1 i
  have hN : cfg0.N = 256 := N_0
  refine ⟨⟨(i 0).val / 2048 * 32 + 31, by rw [hN]; omega⟩, (flush0_4 _).mpr (by show ((i 0).val / 2048 * 32 + 31) % 32 = 31; omega), ?_⟩
  obtain ⟨-, -, -, -, -, -, -, -, e0, e1⟩ := idx_facts ⟨(i 0).val / 2048 * 32 + 31, by rw [hN]; omega⟩
  rw [mem_blk]
  intro a
  match a with
  | ⟨0, _⟩ =>
    show win0_4.index _ (0 : Fin 2) * 2048 ≤ (i 0).val ∧ (i 0).val < win0_4.index _ (0 : Fin 2) * 2048 + 2048
    rw [e0]; show ((i 0).val / 2048 * 32 + 31) / 32 * 2048 ≤ (i 0).val ∧ (i 0).val < ((i 0).val / 2048 * 32 + 31) / 32 * 2048 + 2048
    omega
  | ⟨1, _⟩ =>
    show win0_4.index _ (1 : Fin 2) * 1 ≤ (i 1).val ∧ (i 1).val < win0_4.index _ (1 : Fin 2) * 1 + 1
    rw [e1]; omega

/-- So the output column ends holding the row minimum of every row. -/
theorem final (c : Dev nD) : (dats m 0 c).arrAt 4 cfg0.N = minColumn m c :=
  (dats m 0 c).arrAt_eq_of_cover 4 (minColumn m c) (flushed_eq m c) cover

end Cert.KernelIdeal.Grid

end
-- ==== Proof.LibIdxSums.lean ====
/-
  Sums over the index sets of a vector `[n]` and of a column `[n, 1]`, as sums over the one coordinate that varies:
  both index sets are in bijection with `Fin n`. They complement the library's double sum over a rank-2 index set.
-/
import Idealize.ShloMosaic.Lib.ValueIdx

namespace Idealize.ShloMosaic.ValueIdx

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A sum over the index set of a column `[n, 1]` is the sum over its rows. -/
theorem sum_idx2_col {M : Type*} [AddCommMonoid M] {n : Nat} (f : (⟨2, ![n, 1]⟩ : Shape).Idx → M) :
    ∑ i, f i = ∑ a : Fin n, f (ix2 a (0 : Fin 1)) := by
  rw [sum_idx2]
  exact Finset.sum_congr rfl fun a _ => Fin.sum_univ_one fun b => f (ix2 a b)

end Idealize.ShloMosaic.ValueIdx
-- ==== Proof.Result.lean ====
/-
  The kernel program's two results.

  After the region the host sums the output column from zero and divides by the count 16384: the column holds the row
  minimum of every row, so the first result is the mean of the row minima. It sums psi from zero and divides by the same
  count: the second result is the mean of psi. The three argument arrays end as they were.
-/
import proofs.«174300_j15375982920139_2_alg».proof.Proof.Gen.KernelIdeal.Frame
import proofs.«174300_j15375982920139_2_alg».proof.Proof.Spec
import proofs.«174300_j15375982920139_2_alg».proof.Proof.Blocks
import proofs.«174300_j15375982920139_2_alg».proof.Proof.Grid
import proofs.«174300_j15375982920139_2_alg».proof.Proof.LibIdxSums
import Idealize.ShloMosaic.Lib.ValueIdx
import Idealize.ShloMosaic.Lib.Pipeline.Value
import Idealize.ShloMosaic.Lib.StableHlo.Run
import Idealize.ShloMosaic.Lib.Tactic
import Idealize.ShloMosaic.PureOps.Ideal.Laws

set_option maxRecDepth 16384

noncomputable section

namespace Cert.KernelIdeal.Result

open Cert.KernelIdeal Cert.KernelIdeal.Gen Idealize.ShloMosaic Idealize.ShloMosaic.ValueIdx Idealize.ShloMosaic.TcCoe Idealize.ShloMosaic.Tactic Idealize.SL.Sem
open Cert.SemiDual (zero count meanRowMin meanDual)
open Cert.KernelIdeal.Blocks (argX argY argP)
open Cert.KernelIdeal.Grid (minColumn rowMinAt_val final)

variable (m : (ℓ : Loc nD τ sig) → Buf (Elt Ideal) ℓ) (ρ : Dev nD → PrngReg)

/-- The host's sum of a column over both its axes, from zero, is zero plus the sum over its rows. -/
theorem colSum_apply (y : FVec Ideal S16384x1 .f32) (i : S_.Idx) :
    Host.reduceAdd y (constant (F := Ideal) S_ .f32 0x00000000#32) reducesTo_S16384x1_S_d0_1 h_S_ i
      = zero + ∑ a : Fin 16384, y (ix2 a (0 : Fin 1)) := by
  simp only [Host.reduceAdd, Ideal.hostReduceAdd_def]
  rw [Ideal.hostReduceAdd_total reducesTo_S16384x1_S_d0_1 (fun b => b.elim0), sum_idx2_col]
  rfl

/-- The host's sum of a vector, from zero, is zero plus the sum over its entries. -/
theorem vecSum_apply (y : FVec Ideal S16384 .f32) (i : S_.Idx) :
    Host.reduceAdd y (constant (F := Ideal) S_ .f32 0x00000000#32) reducesTo_S16384_S_d0 h_S_ i
      = zero + ∑ a : Fin 16384, y (ix1 a) := by
  simp only [Host.reduceAdd, Ideal.hostReduceAdd_def]
  rw [Ideal.hostReduceAdd_total reducesTo_S16384_S_d0 (fun b => b.elim0), sum_idx1]
  rfl

/-- The first result after the host's last lines: the mean of the row minima. -/
theorem tail_mean (c : Dev nD) :
    Pipeline.afterTail₀ cfgs (dats m) 0 (V0 m) [hostOps1] c main_v11 = fun _ => meanRowMin (argX m c) (argY m c) (argP m c) := by
  unfold Pipeline.afterTail₀
  show StableHlo.after hostOps1 _ (Proc.devRef .tc main_v11) = _
  after_results
  have e : Pipeline.withArrays (cfgs 0).spec c (V0 m c) (fun w => (dats m 0 c).arrAt w (cfgs 0).N) (Proc.devRef .tc main_v9) = minColumn m c :=
    (Pipeline.withArrays_arr spec0 launch0.win.arr_inj c _ _ 4).trans (final m c)
  rw [e]
  funext i
  refine (congrArg (fun s => Ideal.div s count) (colSum_apply (minColumn m c) i)).trans ?_
  unfold meanRowMin
  refine congrArg (fun s => Ideal.div (zero + s) count) (Finset.sum_congr rfl fun a _ => ?_)
  exact rowMinAt_val m c a

/-- The second result: the mean of psi. -/
theorem tail_dual (c : Dev nD) :
    Pipeline.afterTail₀ cfgs (dats m) 0 (V0 m) [hostOps1] c main_v13 = fun _ => meanDual (argP m c) := by
  unfold Pipeline.afterTail₀
  show StableHlo.after hostOps1 _ (Proc.devRef .tc main_v13) = _
  after_results
  have e : Pipeline.withArrays (cfgs 0).spec c (V0 m c) (fun w => (dats m 0 c).arrAt w (cfgs 0).N) (Proc.devRef .tc main_arg2) = argP m c :=
    (Pipeline.withArrays_of_ne _ c (V0 m c) _ main_arg2 (by exact (by decide : ∀ w, Pipeline.arrRef spec0 w ≠ main_arg2))).trans (V_main_arg2 m c)
  rw [e]
  funext i
  exact congrArg (fun s => Ideal.div s count) (vecSum_apply (argP m c) i)

/-- The run: both results at the specification's means of the argument arrays, the arguments unchanged. -/
theorem run : θ_run defs (onTc (τ := τ) (main (F := Ideal))) ⟨m, fun _ => 0, ρ⟩ fun r => ∀ c : Dev nD,
      r.2.mem ((c.tc : Thread nD τ).loc main_v11) = (fun _ => meanRowMin (argX m c) (argY m c) (argP m c))
      ∧ r.2.mem ((c.tc : Thread nD τ).loc main_v13) = (fun _ => meanDual (argP m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v11 (Pipeline.mem_restRefs_of main_v11 (by decide) (by decide))).trans (tail_mean m c),
     ((h c).2 main_v13 (Pipeline.mem_restRefs_of main_v13 (by decide) (by decide))).trans (tail_dual m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.Result

end
-- ==== Proof.RefValue.lean ====
/-
  The reference program's two results, read over the extended reals.

  Its cost matrix has, at (i, j), the squared norm of x_i plus the squared norm of y_j, less twice their inner product,
  less psi_j — psi taken last. Its reduction along the columns from +infinity is the minimum of row i's cost over every
  column; the first result is the sum of those minima from zero, divided by the count 16384; the second is the sum of
  psi from zero, divided by the same count.
-/
import proofs.«174300_j15375982920139_2_alg».proof.Proof.Gen.ReferenceIdeal.Read
import proofs.«174300_j15375982920139_2_alg».proof.Proof.Spec
import proofs.«174300_j15375982920139_2_alg».proof.Proof.LibIdxSums
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Idealize.ShloMosaic.TcCoe
open Cert.SemiDual (Mat Vec1 zero two top count sqNorm costLate rowMin meanRowMin meanDual)

/-- The cost matrix at (i, j). -/
theorem cost_apply (X Y : Mat) (P : Vec1) (i j : Fin 16384) :
    val_main_v16 (F := Ideal) X Y P (ix2 i j) = costLate X Y P i j := by
  have h1 : ∀ k : Fin 256, idx_main_v1 (idx_main_v2 (idx_main_v6 (ix2 i j))) k = ix2 i k :=
    fun k => funext fun a => Fin.ext (by match a with | ⟨0, _⟩ => rfl | ⟨1, _⟩ => rfl)
  have h2 : ∀ k : Fin 256, idx_main_v4 (idx_main_v5 (idx_main_v7 (ix2 i j))) k = ix2 j k :=
    fun k => funext fun a => Fin.ext (by match a with | ⟨0, _⟩ => rfl | ⟨1, _⟩ => rfl)
  have h3 : ∀ k : Fin 256, lidx_main_v10 (ix2 i j) k = ix2 i k :=
    fun k => funext fun a => Fin.ext (by match a with | ⟨0, _⟩ => rfl | ⟨1, _⟩ => rfl)
  have h4 : ∀ k : Fin 256, idx_main_v9 (ridx_main_v10 (ix2 i j) k) = ix2 j k :=
    fun k => funext fun a => Fin.ext (by match a with | ⟨0, _⟩ => rfl | ⟨1, _⟩ => rfl)
  have h5 : idx_main_v14 (idx_main_v15 (ix2 i j)) = ix1 j :=
    funext fun a => Fin.ext (by match a with | ⟨0, _⟩ => rfl)
  simp only [val_main_v16_apply, val_main_v13_apply, val_main_v8_apply, val_main_v6_apply, val_main_v2_apply,
    val_main_v1_apply, val_main_v0_apply, val_main_v7_apply, val_main_v5_apply, val_main_v4_apply, val_main_v3_apply,
    val_main_v12_apply, val_main_v11_apply, val_main_v10_apply, val_main_v9_apply, val_main_v15_apply, val_main_v14_apply,
    h1, h2, h3, h4, h5]
  rfl

/-- Row `i` with column `k` put back is entry (i, k). -/
theorem lift_row (h : S16384x16384.Reduces [1] S16384) (i : Fin 16384) (k : Fin (S16384x16384.size 1)) :
    h.lift (ix1 i) k = ix2 i (⟨k.val, k.isLt⟩ : Fin 16384) := by
  funext c; apply Fin.ext
  fin_cases c <;> rfl

/-- The reduction along the columns is the row minimum. -/
theorem rowMin_apply (X Y : Mat) (P : Vec1) (i : Fin 16384) :
    val_main_v17 (F := Ideal) X Y P (ix1 i) = rowMin X Y P i := by
  unfold val_main_v17
  have hr : S16384x16384.Reduces [1] S16384 := ⟨reducesTo_S16384x16384_S16384_d1.1, Nat.one_pos, reducesTo_S16384x16384_S16384_d1.2⟩
  rw [Host.reduce_eq_fold_single FloatOps.minimumf _ _ reducesTo_S16384x16384_S16384_d1 hr h_S_]
  unfold rowMin
  have hf : (val_main_v16 (F := Ideal) X Y P ∘ hr.lift (ix1 i)) = fun j : Fin 16384 => costLate X Y P i j :=
    funext fun k => (congrArg (val_main_v16 (F := Ideal) X Y P) (lift_row hr i k)).trans (cost_apply X Y P i ⟨k.val, k.isLt⟩)
  exact congrArg (fun f => Finset.fold min top f (Finset.univ : Finset (Fin 16384))) hf

/-- The first result: the mean of the row minima. -/
theorem mean_eq (X Y : Mat) (P : Vec1) : val_main_v19 (F := Ideal) X Y P = fun _ => meanRowMin X Y P := by
  funext i
  rw [val_main_v19_apply, val_main_v18_apply, sum_idx1]
  simp only [rowMin_apply]
  rfl

/-- The second result: the mean of psi. -/
theorem meanDual_eq (P : Vec1) : val_main_v21 (F := Ideal) P = fun _ => meanDual P := by
  funext i
  rw [val_main_v21_apply, val_main_v20_apply, sum_idx1]
  rfl

end Cert.ReferenceIdeal.RefValue

end
-- ==== Proof.lean ====
/-
  The semidual retrieval cost: a tiled kernel against its plain reference, equal over the extended reals.

  For points x_i, y_j in 256 dimensions (16384 of each) and a dual vector psi, both programs return the mean over i of
      min over j of ( |x_i|^2 + |y_j|^2 - 2 <x_i, y_j> - psi_j )
  and the mean of psi. The reference forms the whole 16384 x 16384 cost matrix, subtracting psi last, and reduces each
  row from +infinity. The kernel walks a grid of 8 row blocks by 32 column tiles: at each point it forms the
  2048 x 512 tile of the cost with psi already taken from |y_j|^2, takes each row's minimum over the tile from
  +infinity, and folds it into a running column that starts at +infinity at the first tile of a row block; after the
  last tile the running column is written out, and the host sums the output column and divides by 16384.

  Why they agree. (1) The two groupings of the cost are one number: subtraction is addition of the negative, and
  addition of extended reals commutes and associates — no finiteness is needed, and the precondition is never opened.
  (2) The matrix products are both the plain sum of products over the 256 coordinates, and a change of float format is
  the identity. (3) A minimum taken tile by tile is the minimum over all columns: the running value's lower bounds after
  tile k are the common lower bounds of the columns below (k + 1) * 512, by induction along the tiles, and two values
  with the same lower bounds are equal. (4) The output's eight blocks tile the output column, so the host's sum runs
  over the row minimum of every row. The idealization rewrote nothing, so that claim is trivial; the three frames are
  the generated ones (the reference's is its generated run with the results dropped).
-/
import proofs.«174300_j15375982920139_2_alg».proof.Defs
import proofs.«174300_j15375982920139_2_alg».proof.Proof.Gen.Kernel
import proofs.«174300_j15375982920139_2_alg».proof.Proof.Gen.Kernel.Skeleton
import proofs.«174300_j15375982920139_2_alg».proof.Proof.Gen.Kernel.Launch
import proofs.«174300_j15375982920139_2_alg».proof.Proof.Gen.Kernel.Points
import proofs.«174300_j15375982920139_2_alg».proof.Proof.Gen.Kernel.Frame
import proofs.«174300_j15375982920139_2_alg».proof.Proof.Gen.KernelIdeal
import proofs.«174300_j15375982920139_2_alg».proof.Proof.Gen.KernelIdeal.Skeleton
import proofs.«174300_j15375982920139_2_alg».proof.Proof.Gen.KernelIdeal.Launch
import proofs.«174300_j15375982920139_2_alg».proof.Proof.Gen.KernelIdeal.Points
import proofs.«174300_j15375982920139_2_alg».proof.Proof.Gen.KernelIdeal.Frame
import proofs.«174300_j15375982920139_2_alg».proof.Proof.Gen.ReferenceIdeal
import proofs.«174300_j15375982920139_2_alg».proof.Proof.Gen.Pre_finite_inputs
import proofs.«174300_j15375982920139_2_alg».proof.Proof.Gen.ReferenceIdeal.Run
import proofs.«174300_j15375982920139_2_alg».proof.Proof.Gen.ReferenceIdeal.Read
import proofs.«174300_j15375982920139_2_alg».proof.Proof.Spec
import proofs.«174300_j15375982920139_2_alg».proof.Proof.Blocks
import proofs.«174300_j15375982920139_2_alg».proof.Proof.Result
import proofs.«174300_j15375982920139_2_alg».proof.Proof.RefValue
import Idealize.ShloMosaic.Adequacy
import Idealize.ShloMosaic.Init

noncomputable section

namespace Cert.Proof

open Idealize.ShloMosaic Idealize.SL.Sem
open Cert.SemiDual (meanRowMin meanDual)
open Cert.KernelIdeal.Blocks (argX argY argP)

/-- The word-level kernel and its idealization run, fault-free, and leave their arguments unchanged. -/
theorem frame_kernel : Cert.frame_Kernel :=
  fun m ρ _ => Cert.Kernel.Gen.frame m ρ
theorem frame_kernelIdeal : Cert.frame_KernelIdeal :=
  fun m ρ _ => Cert.KernelIdeal.Gen.frame m ρ

/-- The reference runs and leaves its arguments unchanged: its run with the two results dropped. -/
theorem frame_reference : Cert.frame_ReferenceIdeal :=
  fun m ρ _ => (θ_run Cert.ReferenceIdeal.defs _ _).mono (fun _ h c => (h c).2.2)
    (Cert.ReferenceIdeal.Value.run (F := Ideal) m ρ)

/-- From memories that agree on the arguments both programs end with the mean of the row minima and the mean of psi
    of the same three arrays. -/
theorem algebraic : Cert.algebraic_KernelIdeal_ReferenceIdeal := by
  intro m ρ m' ρ' _ hagree
  refine ⟨fun c => fun _ => meanRowMin (argX m c) (argY m c) (argP m c), fun c => fun _ => meanDual (argP m c),
    Cert.KernelIdeal.Result.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v19_eq, Cert.ReferenceIdeal.RefValue.mean_eq,
      (hagree c).1, (hagree c).2.1, (hagree c).2.2]
    rfl
  · rw [(h c).2.1, Cert.ReferenceIdeal.Read.val_main_v21_eq, Cert.ReferenceIdeal.RefValue.meanDual_eq, (hagree c).2.2]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
